-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : IVec S4096x4096 32) (main_arg2 : FVec F S4096x1 .f32) (main_arg3 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096x4096 : Shape := ⟨2, ![4096, 4096]⟩
abbrev S4096x1 : Shape := ⟨2, ![4096, 1]⟩
abbrev S4096 : Shape := ⟨1, ![4096]⟩
abbrev S16384x4096 : Shape := ⟨2, ![16384, 4096]⟩
abbrev S1x4096 : Shape := ⟨2, ![1, 4096]⟩
abbrev S16384x128 : Shape := ⟨2, ![16384, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S16384x4096, .f32⟩
  | .hbm, ⟨5, _⟩ => ⟨S4096x4096, .bf16⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S16384x4096, .bf16⟩
  | .hbm, ⟨10, _⟩ => ⟨S16384x128, .f32⟩
  | .hbm, ⟨11, _⟩ => ⟨S16384x4096, .f32⟩
  | .hbm, ⟨12, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x128, .f32⟩
  | .local _ .vmem, ⟨5, _⟩ => ⟨S512x128, .f32⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x128, .f32⟩
  | .local _ .vmem, ⟨11, _⟩ => ⟨S512x128, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .f32⟩
  | .local _ .vmem, ⟨17, _⟩ => ⟨S512x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x4096x4096_S16384x4096 : S4x4096x4096.ShapeCasts S16384x4096
  shapeCasts_S4096x1_S4096 : S4096x1.ShapeCasts S4096
  bcast_S4096_S1x4096_1 : S4096.BroadcastsInDim S1x4096 (![1] : Fin 1 → Fin S1x4096.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x1 : S512x128.Slices ![0, 0] S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S16384x4096_S4x4096x4096 : S16384x4096.ShapeCasts S4x4096x4096
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .bf16 = 32 ∨ (Rect.block (s := S16384x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S16384x128.size a
  hwx1_2 : ∀ i : grid1.Coords, EltTy.bits .f32 = 32 ∨ (Rect.block (s := S16384x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S16384x4096.size a
  hwx1_5 : ∀ i : grid1.Coords, EltTy.bits .f32 = 32 ∨ (Rect.block (s := S16384x4096) S512x512.size (cc1_transform_5 i) (hinb1_5 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_1) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5_0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4096, .f32⟩
  | .hbm, ⟨30, _⟩ => ⟨S1x1x4096, .f32⟩
  | .hbm, ⟨31, _⟩ => ⟨S4x4096x4096, .f32⟩
  | .hbm, ⟨32, _⟩ => ⟨S4x4096x4096, .f32⟩
  | .hbm, ⟨33, _⟩ => ⟨S1x1x4096, .f32⟩
  | .hbm, ⟨34, _⟩ => ⟨S4x4096x4096, .f32⟩
  | .hbm, ⟨35, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S_S4x4096x4096 : S_.BroadcastsInDim S4x4096x4096 (![] : Fin 0 → Fin S4x4096x4096.rank)
  shapeCasts_S4096x1_S4096 : S4096x1.ShapeCasts S4096
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KernelRun.lean ====
/-
  The idealized kernel's run with its result array named.

  The program is two grid regions between stretches of host operations. Every unscoped buffer of a core is followed
  through the four segments: after the host operations before the regions, after the quantisation region (its two
  output arrays at what their write-backs leave), after the matrix-product region (its output array likewise) and after
  the closing reshape. The final state holds every such buffer at the last of these contents, so the result array is
  read there, and each argument array reads back to its launch contents.
-/
import proofs.«168288_j71725953843873_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents
    the four segments leave in it, and the four argument arrays end as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Bridge

end
-- ==== Proof.QuantSpec.lean ====
/-
  Per-token absmax quantisation followed by a matrix product and a dequantising affine map, entry by entry, on the
  extended reals.

  A row x[r, ·] of 4096 entries gets the scale s(r) = max (absmax(r) / 127) eps, where absmax(r) is the maximum of
  |x[r, k]| over k started from minus infinity. Its quantised entries are q[r, k] = min 127 (max (-128) (round-half-even
  (x[r, k] / s(r)))). The output entry for a weight row w[o, ·], a channel scale a and a bias b is
  ((sum over k of q[r, k] * w[o, k]) * s(r)) * a + b. Everything is a function of ONE row of the input and ONE row of the
  weights, so a computation on a block of rows and a computation on the whole array meet in the same expression.
-/
import Idealize.ShloMosaic.PureOps.Ideal
import Idealize.ShloMosaic.Lib.ValueIdx

noncomputable section

open scoped BigOperators

namespace Cert.QuantSpec

open Idealize.ShloMosaic Idealize.ShloMosaic.ValueIdx

/-- The scale of a row: the row's largest absolute value over 127, kept at least the small positive constant. -/
def rowScale (row : Fin 4096 → EReal) : EReal :=
  max (Ideal.div ((Finset.univ : Finset (Fin 4096)).fold max (Ideal.ofBits .f32 0xFF800000#32)
        (fun k => FloatOps.absf (F := Ideal) (φ := .f32) (row k))) (Ideal.ofBits .f32 0x42FE0000#32))
    (Ideal.ofBits .f32 0x322BCC77#32)

/-- A row's entry over the row's scale, rounded half to even and kept inside [-128, 127]. -/
def quant (row : Fin 4096 → EReal) (k : Fin 4096) : EReal :=
  min (Ideal.ofBits .f32 0x42FE0000#32) (max (Ideal.ofBits .f32 0xC3000000#32)
    (Ideal.liftRound Ideal.roundHalfEven (Ideal.div (row k) (rowScale row))))

/-- One output entry: the quantised row against a weight row, rescaled by the row's scale and the channel's, plus the bias. -/
def entry (row wrow : Fin 4096 → EReal) (a b : EReal) : EReal :=
  (∑ k : Fin 4096, quant row k * wrow k) * rowScale row * a + b

/-- The quantised array of a [16384, 4096] array, row by row. -/
def quantArr (X : (⟨2, ![16384, 4096]⟩ : Shape).Idx → EReal) : (⟨2, ![16384, 4096]⟩ : Shape).Idx → EReal :=
  fun j => quant (fun k => X (ix2 (j 0) k)) (j 1)

/-- The rows' scales repeated over 128 lanes. -/
def scaleArr (X : (⟨2, ![16384, 4096]⟩ : Shape).Idx → EReal) : (⟨2, ![16384, 128]⟩ : Shape).Idx → EReal :=
  fun j => rowScale (fun k => X (ix2 (j 0) k))

/-- Rows of Q against rows of W, times lane 0 of the row's scales, times the channel's scale, plus the channel's bias. -/
def mmArr (Q : (⟨2, ![16384, 4096]⟩ : Shape).Idx → EReal) (W : (⟨2, ![4096, 4096]⟩ : Shape).Idx → EReal)
    (S : (⟨2, ![16384, 128]⟩ : Shape).Idx → EReal) (A B : (⟨2, ![1, 4096]⟩ : Shape).Idx → EReal) :
    (⟨2, ![16384, 4096]⟩ : Shape).Idx → EReal :=
  fun j => (∑ k : Fin 4096, Q (ix2 (j 0) k) * W (ix2 (j 1) k)) * S (ix2 (j 0) (0 : Fin 128)) * A (ix2 (0 : Fin 1) (j 1))
    + B (ix2 (0 : Fin 1) (j 1))

/-- The whole result over [4, 4096, 4096]: entry (b, s, o) from row (b, s) of the input and row o of the weights. -/
def result (x : (⟨3, ![4, 4096, 4096]⟩ : Shape).Idx → EReal) (w : (⟨2, ![4096, 4096]⟩ : Shape).Idx → EReal)
    (a : (⟨2, ![4096, 1]⟩ : Shape).Idx → EReal) (b : (⟨1, ![4096]⟩ : Shape).Idx → EReal) :
    (⟨3, ![4, 4096, 4096]⟩ : Shape).Idx → EReal :=
  fun i => entry (fun k => x (ix3 (i 0) (i 1) k)) (fun k => w (ix2 (i 2) k)) (a (ix2 (i 2) (0 : Fin 1))) (b (ix1 (i 2)))

end Cert.QuantSpec

end
-- ==== Proof.LibRowMax.lean ====
/-
  The maximum along the lanes of a row, read at an index, at the exact values.

  A lane maximum of an [a, b] array started from the word of minus infinity is, at row p, the fold of `max` from that word's value
  over the row's b entries; the host's one-operand reduce with a maximum body over the same axis is the same fold from
  its initial value. Both forms are stated over `Fin b` with the entries named by their coordinates, so a row-wise
  normalization on a block of rows and on the whole array meet in one expression.
-/
import Idealize.ShloMosaic.Lib.ValueIdx
import Idealize.ShloMosaic.PureOps.Ideal.Laws
import Idealize.ShloMosaic.PureOps.Reduce

noncomputable section

namespace Cert.LibRowMax

open Idealize.ShloMosaic Idealize.ShloMosaic.ValueIdx

/-- The inserted index of a lane reduction of an [a, b] array at row p and lane k is (p, k). -/
theorem lift_row {a b : ℕ} (h : (⟨2, ![a, b]⟩ : Shape).Reduces [1] ⟨1, ![a]⟩) (p : Fin a) (k : Fin b) :
    h.lift (ix1 p) k = ix2 p k :=
  funext fun c => by
    match c with
    | ⟨0, _⟩ => exact Fin.ext rfl
    | ⟨1, _⟩ => exact Fin.ext rfl

/-- The lane maximum of an `[a, b]` array started from the word of minus infinity, at row `p`: the fold of `max`
    over the row's entries from that word's value. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (congrArg (Finset.fold max (Ideal.ofBits .f32 0xFF800000#32) · Finset.univ) (funext fun k => congrArg src (lift_row h p k)))

/-- The host's reduce with a maximum body over the lanes of an `[a, b]` array, at row `p`: the fold of `max`
    over the row's entries from the initial value. -/
theorem hostMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (Finset.fold max (init (Shape.Idx.first hu)) · Finset.univ) (funext fun k => congrArg x (lift_row h p k)))

end Cert.LibRowMax

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.QuantBody.lean ====
/-
  The quantisation body at an index.

  On a block of 512 rows of 4096 entries, the body takes each row's largest absolute value (a lane maximum started
  from minus infinity), divides it by 127 and keeps it at least the small positive constant: the row's scale, a column
  [512, 1]. It then divides every entry by its row's scale (the column broadcast over the lanes), rounds half to even and
  clips to [-128, 127]; the narrowing to the 16-bit format changes nothing at the exact values. The second output is the
  scale column repeated over 128 lanes. Each of the three is a function of the entry's own row only.
-/
import proofs.«168288_j71725953843873_2_alg».proof.Proof.Gen.KernelIdeal.Skeleton
import proofs.«168288_j71725953843873_2_alg».proof.Proof.QuantSpec
import proofs.«168288_j71725953843873_2_alg».proof.Proof.LibRowMax
import proofs.«168288_j71725953843873_2_alg».proof.Proof.LibKeepdims
import Idealize.ShloMosaic.Lib.Pipeline.Value
import Idealize.ShloMosaic.Lib.ValueIdx

noncomputable section

namespace Cert.KernelIdeal.Bridge

open Cert.KernelIdeal Cert.KernelIdeal.Gen Cert.QuantSpec
open Idealize.ShloMosaic Idealize.ShloMosaic.ValueIdx

/-- The scale column at row p is the row's scale. -/
theorem pay2_apply (x0 : Vec Ideal S512x4096 .f32) (p : Fin 512) (u : Fin 1) :
    k0_pay2 (F := Ideal) x0 (ix2 p u) = rowScale (fun k => x0 (ix2 p k)) := by
  delta k0_pay2 k0_pay1
  dsimp only
  rw [maximumf_apply, divf_apply, broadcast_apply, broadcast_apply, shapeCast_self,
    Cert.LibKeepdims.shapeCast_a_a1_apply, Cert.LibRowMax.laneMax_apply]
  rfl

/-- The quantised block at (p, q): the entry over its row's scale, rounded half to even, clipped. -/
theorem pay3_apply (x0 : Vec Ideal S512x4096 .f32) (p : Fin 512) (q : Fin 4096) :
    k0_pay3 (F := Ideal) x0 (ix2 p q) = quant (fun k => x0 (ix2 p k)) q := by
  delta k0_pay3
  try dsimp only
  rw [truncf_apply, minimumf_apply, maximumf_apply, broadcast_apply, broadcast_apply]
  show min _ (max _ (FloatOps.roundeven (divf (k0_pay1 x0) (broadcastTo S512x4096 (k0_pay2 x0) broadcasts_S512x1_S512x4096) (ix2 p q)))) = _
  rw [divf_apply, Cert.LibKeepdims.broadcastTo_a1_ab_apply, pay2_apply]
  delta k0_pay1
  try dsimp only
  rw [shapeCast_self]
  rfl

/-- The scale block at (p, l), whatever the lane l: the row's scale. -/
theorem pay4_apply (x0 : Vec Ideal S512x4096 .f32) (p : Fin 512) (l : Fin 128) :
    k0_pay4 (F := Ideal) x0 (ix2 p l) = rowScale (fun k => x0 (ix2 p k)) := by
  delta k0_pay4
  try dsimp only
  rw [Cert.LibKeepdims.broadcastTo_a1_ab_apply, shapeCast_self, pay2_apply]

end Cert.KernelIdeal.Bridge

end
-- ==== Proof.QuantBlocks.lean ====
/-
  The quantisation region's two output arrays, whole.

  The region runs over 32 grid points. At point t its input block is rows 512 t ... 512 t + 511 of the [16384, 4096] input,
  its first output block the same rows of the [16384, 4096] quantised array, its second the same rows of the [16384, 128] scale
  array: every block index is (t, 0). What point t writes back is therefore block t of ONE whole-array function of the
  input (each written entry depends on its own row only, and the row is the same row of the array), and the 32 blocks tile
  each output array: the point covering row r is r / 512. So each output array ends holding that function.
-/
import proofs.«168288_j71725953843873_2_alg».proof.Proof.Gen.KernelIdeal.Frame
import proofs.«168288_j71725953843873_2_alg».proof.Proof.QuantSpec
import proofs.«168288_j71725953843873_2_alg».proof.Proof.QuantBody
import Idealize.ShloMosaic.Lib.Pipeline.Value
import Idealize.ShloMosaic.Lib.ValueIdx

set_option maxRecDepth 65536

noncomputable section

namespace Cert.KernelIdeal.Bridge

open Cert.KernelIdeal Cert.KernelIdeal.Gen Cert.QuantSpec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three windows' block indices at point t are all (t, 0). -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt0 (t : Fin cfg0.N) : t.val < 32 :=
  Nat.lt_of_lt_of_eq t.isLt (show cfg0.N = 32 from N_0)

/-- The input block at point t reads rows 512 t + · of the input array. -/
theorem iblk0_apply (c : Dev nD) (t : Fin cfg0.N) (x : S512x4096.Idx) (k : S16384x4096.Idx)
    (hk0 : (k 0).val = t.val * 512 + (x 0).val) (hk1 : (k 1).val = (x 1).val) :
    (iblk0 V c 0 t : Vec Ideal S512x4096 .f32) x = (V c main_v0 : S16384x4096.Idx → EReal) k := by
  obtain ⟨e0, e1, -⟩ := index0 t
  unfold iblk0
  rw [View.read_apply]
  show (V c main_v0 : S16384x4096.Idx → EReal) _ = (V c main_v0 : S16384x4096.Idx → EReal) _
  refine congrArg (V c main_v0 : S16384x4096.Idx → EReal) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 4096 + 1 * (x 1).val = (k 1).val; rw [e1, hk1]; omega

/-! ## The quantised array -/

/-- What point t writes back to the quantised array is block t of the quantised input. -/
theorem flushed0_q (c : Dev nD) (t : Fin cfg0.N) :
    (dat0 (F := Ideal) V c).flushed 1 t = ((cfg0.win 1).blk t).view.read (Elt Ideal) (quantArr (V c main_v0)) := by
  show (cfg0.win 1).cut (grid0.coords t) ((dat0 V c).after 1 t) = _
  rw [after0_1]
  unfold out0_1
  rw [View.canon_unit_zero zero_offsets]
  simp only [View.ld_unit_zero (S := S512x4096) zero_offsets]
  obtain ⟨-, -, e2, e3, -⟩ := index0 t
  have ht := point_lt0 t
  funext j
  obtain ⟨p, q, rfl⟩ : ∃ (p : Fin 512) (q : Fin 4096), j = ix2 p q := ⟨j 0, j 1, eq_ix2 j⟩
  have hrow : t.val * 512 + p.val < 16384 := by have := p.isLt; omega
  have hemb : ((cfg0.win 1).blk t).view.emb (ix2 p q) = (ix2 (⟨t.val * 512 + p.val, hrow⟩ : Fin 16384) q : S16384x4096.Idx) := by
    funext a; apply Fin.ext
    match a with
    | ⟨0, _⟩ => show win0_1.index t (0 : Fin 2) * 512 + 1 * p.val = t.val * 512 + p.val; rw [e2]; omega
    | ⟨1, _⟩ => show win0_1.index t (1 : Fin 2) * 4096 + 1 * q.val = q.val; rw [e3]; omega
  show k0_pay3 (F := Ideal) (iblk0 V c 0 t) (ix2 p q) = quantArr (V c main_v0) (((cfg0.win 1).blk t).view.emb (ix2 p q))
  rw [pay3_apply, hemb]
  show quant (fun k => (iblk0 V c 0 t : Vec Ideal S512x4096 .f32) (ix2 p k)) q
    = quant (fun k => (V c main_v0 : S16384x4096.Idx → EReal) (ix2 (⟨t.val * 512 + p.val, hrow⟩ : Fin 16384) k)) q
  refine congrArg (fun row => quant row q) (funext fun k => ?_)
  exact iblk0_apply V c t (ix2 p k) (ix2 (⟨t.val * 512 + p.val, hrow⟩ : Fin 16384) k) rfl rfl

/-- An index of the quantised array is in point t's block iff each coordinate is in the block's range. -/
theorem mem_blk0_q (t : Fin cfg0.N) (i : S16384x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v5_0).slice (win0_1.rect t)).set ↔ _
  rw [View.set_slice_whole, Rect.mem_set_unit]
  exact Iff.rfl

/-- Every index of the quantised array is in the block of the point its row falls in. -/
theorem cover0_q (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 32 := N_0
  have hlt : (i 0).val / 512 < cfg0.N := by rw [hN]; omega
  obtain ⟨-, -, e2, e3, -⟩ := index0 ⟨(i 0).val / 512, hlt⟩
  refine ⟨⟨(i 0).val / 512, hlt⟩, flush0_1 _, ?_⟩
  rw [mem_blk0_q]
  intro a
  match a with
  | ⟨0, _⟩ =>
    show win0_1.index ⟨(i 0).val / 512, hlt⟩ (0 : Fin 2) * 512 ≤ (i 0).val
      ∧ (i 0).val < win0_1.index ⟨(i 0).val / 512, hlt⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, hlt⟩ (1 : Fin 2) * 4096 ≤ (i 1).val
      ∧ (i 1).val < win0_1.index ⟨(i 0).val / 512, hlt⟩ (1 : Fin 2) * 4096 + 4096
    rw [e3]; omega

/-- The quantised array after the region: the quantised input, row by row. -/
theorem region0_q (c : Dev nD) : (dat0 (F := Ideal) V c).arrAt 1 cfg0.N = quantArr (V c main_v0) :=
  (dat0 (F := Ideal) V c).arrAt_eq_of_cover 1 (quantArr (V c main_v0)) (fun t _ => flushed0_q V c t) cover0_q

/-! ## The scale array -/

/-- What point t writes back to the scale array is block t of the rows' scales over 128 lanes. -/
theorem flushed0_s (c : Dev nD) (t : Fin cfg0.N) :
    (dat0 (F := Ideal) V c).flushed 2 t = ((cfg0.win 2).blk t).view.read (Elt Ideal) (scaleArr (V c main_v0)) := by
  show (cfg0.win 2).cut (grid0.coords t) ((dat0 V c).after 2 t) = _
  rw [after0_2]
  unfold out0_2
  rw [View.canon_unit_zero zero_offsets]
  simp only [View.ld_unit_zero (S := S512x4096) zero_offsets]
  obtain ⟨-, -, -, -, e4, e5⟩ := index0 t
  have ht := point_lt0 t
  funext j
  obtain ⟨p, l, rfl⟩ : ∃ (p : Fin 512) (l : Fin 128), j = ix2 p l := ⟨j 0, j 1, eq_ix2 j⟩
  have hrow : t.val * 512 + p.val < 16384 := by have := p.isLt; omega
  have hemb : ((cfg0.win 2).blk t).view.emb (ix2 p l) = (ix2 (⟨t.val * 512 + p.val, hrow⟩ : Fin 16384) l : S16384x128.Idx) := by
    funext a; apply Fin.ext
    match a with
    | ⟨0, _⟩ => show win0_2.index t (0 : Fin 2) * 512 + 1 * p.val = t.val * 512 + p.val; rw [e4]; omega
    | ⟨1, _⟩ => show win0_2.index t (1 : Fin 2) * 128 + 1 * l.val = l.val; rw [e5]; omega
  show k0_pay4 (F := Ideal) (iblk0 V c 0 t) (ix2 p l) = scaleArr (V c main_v0) (((cfg0.win 2).blk t).view.emb (ix2 p l))
  rw [pay4_apply, hemb]
  show rowScale (fun k => (iblk0 V c 0 t : Vec Ideal S512x4096 .f32) (ix2 p k))
    = rowScale (fun k => (V c main_v0 : S16384x4096.Idx → EReal) (ix2 (⟨t.val * 512 + p.val, hrow⟩ : Fin 16384) k))
  refine congrArg rowScale (funext fun k => ?_)
  exact iblk0_apply V c t (ix2 p k) (ix2 (⟨t.val * 512 + p.val, hrow⟩ : Fin 16384) k) rfl rfl

/-- An index of the scale array is in point t's block iff each coordinate is in the block's range. -/
theorem mem_blk0_s (t : Fin cfg0.N) (i : S16384x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v5_1).slice (win0_2.rect t)).set ↔ _
  rw [View.set_slice_whole, Rect.mem_set_unit]
  exact Iff.rfl

/-- Every index of the scale array is in the block of the point its row falls in. -/
theorem cover0_s (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 32 := N_0
  have hlt : (i 0).val / 512 < cfg0.N := by rw [hN]; omega
  obtain ⟨-, -, -, -, e4, e5⟩ := index0 ⟨(i 0).val / 512, hlt⟩
  refine ⟨⟨(i 0).val / 512, hlt⟩, flush0_2 _, ?_⟩
  rw [mem_blk0_s]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hlt⟩ (1 : Fin 2) * 128 ≤ (i 1).val
      ∧ (i 1).val < win0_2.index ⟨(i 0).val / 512, hlt⟩ (1 : Fin 2) * 128 + 128
    rw [e5]; omega

/-- The scale array after the region: each row's scale on every lane. -/
theorem region0_s (c : Dev nD) : (dat0 (F := Ideal) V c).arrAt 2 cfg0.N = scaleArr (V c main_v0) :=
  (dat0 (F := Ideal) V c).arrAt_eq_of_cover 2 (scaleArr (V c main_v0)) (fun t _ => flushed0_s V c t) cover0_s

end Cert.KernelIdeal.Bridge

end
-- ==== Proof.KernelValue.lean ====
/-
  The kernel's arrangement of the computation against the specification, entry by entry.

  The kernel flattens the [4, 4096, 4096] input to [16384, 4096] (row b * 4096 + s of the flat array is row (b, s) of the
  input), quantises it row by row, multiplies rows against the rows of the integer weights read as reals, and rescales by
  lane 0 of the rows' scales, by the channel scales laid out as a row [1, 4096] (entry (0, o) is the channel scale (o, 0)) and
  adds the bias laid out the same way; the [16384, 4096] product is then folded back to [4, 4096, 4096]. Entry (b, s, o) of
  the folded product is entry (b * 4096 + s, o) of the flat one, whose row is row (b, s) of the input: the specification's
  entry. The integer weights read as reals are the same reals whatever float format they were converted to.
-/
import proofs.«168288_j71725953843873_2_alg».proof.Proof.QuantSpec
import Idealize.ShloMosaic.Lib.Pipeline.Value
import Idealize.ShloMosaic.Lib.ValueIdx

noncomputable section

open scoped BigOperators

namespace Cert.QuantSpec

open Idealize.ShloMosaic Idealize.ShloMosaic.ValueIdx

abbrev S3 : Shape := ⟨3, ![4, 4096, 4096]⟩
abbrev SX : Shape := ⟨2, ![16384, 4096]⟩
abbrev SW : Shape := ⟨2, ![4096, 4096]⟩
abbrev SA : Shape := ⟨2, ![4096, 1]⟩
abbrev SV : Shape := ⟨1, ![4096]⟩
abbrev SR : Shape := ⟨2, ![1, 4096]⟩

/-- The flat row of (b, s). -/
abbrev flatRow (b : Fin 4) (s : Fin 4096) : Fin 16384 := ⟨b.val * 4096 + s.val, by omega⟩

/-- The flattened input at (flat row of (b, s), k) is the input at (b, s, k). -/
theorem flatten_apply (x : S3.Idx → EReal) (h : S3.ShapeCasts SX) (b : Fin 4) (s : Fin 4096) (k : Fin 4096) :
    shapeCast SX x h (ix2 (flatRow b s) k) = x (ix3 b s k) :=
  shapeCast_apply x h _ _ (by
    rw [Shape.rowMajor_val_three, Shape.rowMajor_val_two]
    show (b.val * 4096 + s.val) * 4096 + k.val = (b.val * 4096 + s.val) * 4096 + k.val
    rfl)

/-- The folded product at (b, s, o) is the flat product at (flat row of (b, s), o). -/
theorem fold_apply (Y : SX.Idx → EReal) (h : SX.ShapeCasts S3) (b : Fin 4) (s : Fin 4096) (o : Fin 4096) :
    shapeCast S3 Y h (ix3 b s o) = Y (ix2 (flatRow b s) o) :=
  shapeCast_apply Y h _ _ (by
    rw [Shape.rowMajor_val_three, Shape.rowMajor_val_two]
    show (b.val * 4096 + s.val) * 4096 + o.val = (b.val * 4096 + s.val) * 4096 + o.val
    rfl)

/-- A [4096] vector laid out as the row [1, 4096] reads, at (0, o), the vector at o. -/
theorem row_apply (v : SV.Idx → EReal) (hb : SV.BroadcastsInDim SR (![1] : Fin 1 → Fin SR.rank)) (o : Fin 4096) :
    broadcastInDim SR ![1] hb v (ix2 (0 : Fin 1) o) = v (ix1 o) :=
  broadcastInDim_apply ![1] hb v (ix2 (0 : Fin 1) o) (ix1 o) (fun ax => by
    match ax with
    | ⟨0, _⟩ => show o.val = if (4096 : Nat) = 1 then 0 else o.val; rw [if_neg (by decide)])

/-- The [4096, 1] column read as a [4096] vector, at o, is the column at (o, 0). -/
theorem column_apply (a : SA.Idx → EReal) (h : SA.ShapeCasts SV) (o : Fin 4096) :
    shapeCast SV a h (ix1 o) = a (ix2 o (0 : Fin 1)) :=
  shapeCast_apply a h _ _ (by
    rw [Shape.rowMajor_val_two, Shape.rowMajor_val_one]
    show o.val * 1 + 0 = o.val
    omega)

/-- The kernel's arrangement is the specification. -/
theorem kernelValue_eq (x : S3.Idx → EReal) (wq : SW.Idx → BitVec 32) (a : SA.Idx → EReal) (bias : SV.Idx → EReal)
    (h1 : S3.ShapeCasts SX) (h2 : SA.ShapeCasts SV) (hb : SV.BroadcastsInDim SR (![1] : Fin 1 → Fin SR.rank)) (h3 : SX.ShapeCasts S3) :
    shapeCast S3 (mmArr (quantArr (shapeCast SX x h1)) (sitofp (F := Ideal) .bf16 wq) (scaleArr (shapeCast SX x h1))
        (broadcastInDim SR ![1] hb (shapeCast SV a h2)) (broadcastInDim SR ![1] hb bias)) h3
      = result x (sitofp (F := Ideal) .f32 wq) a bias := by
  funext i
  obtain ⟨b, s, o, rfl⟩ : ∃ (b : Fin 4) (s : Fin 4096) (o : Fin 4096), i = ix3 b s o := ⟨i 0, i 1, i 2, eq_ix3 i⟩
  rw [fold_apply]
  have hrow : (fun k => shapeCast SX x h1 (ix2 (flatRow b s) k)) = fun k => x (ix3 b s k) :=
    funext fun k => flatten_apply x h1 b s k
  show (∑ k : Fin 4096, quant (fun k' => shapeCast SX x h1 (ix2 (flatRow b s) k')) k * sitofp (F := Ideal) .bf16 wq (ix2 o k))
        * rowScale (fun k' => shapeCast SX x h1 (ix2 (flatRow b s) k'))
        * broadcastInDim SR ![1] hb (shapeCast SV a h2) (ix2 (0 : Fin 1) o)
      + broadcastInDim SR ![1] hb bias (ix2 (0 : Fin 1) o)
    = (∑ k : Fin 4096, quant (fun k' => x (ix3 b s k')) k * sitofp (F := Ideal) .f32 wq (ix2 o k))
        * rowScale (fun k' => x (ix3 b s k')) * a (ix2 o (0 : Fin 1)) + bias (ix1 o)
  rw [hrow, row_apply, row_apply, column_apply]
  rfl

end Cert.QuantSpec

end
-- ==== Proof.LibMatmulT.lean ====
/-
  A matrix product with the right operand transposed, read at one entry, on the extended reals.

  For dimension numbers that contract the left operand's second axis with the right operand's second axis
  (an [M, K] array times the transpose of an [N, K] array), started from a zero accumulator, entry (p, c) of the
  product is the sum over k of lhs (p, k) * rhs (c, k). The four coordinate facts about the record's operand
  indices are taken as hypotheses, so the lemma serves every record of that form whatever the extents.
-/
import Idealize.ShloMosaic.PureOps.Ideal.Laws
import Idealize.ShloMosaic.Lib.ValueIdx

noncomputable section

open scoped BigOperators

namespace Idealize.ShloMosaic.MatmulT

open Idealize.ShloMosaic Idealize.ShloMosaic.ValueIdx

/-- Entry (p, c) of the product of an [M, K] array with the transpose of an [N, K] array into a zero accumulator
    is the sum over the one contracted axis of the products of row p of the left operand with row c of the right
    one. `hr`, `hs`: the record contracts one axis, of extent K; `hl0` ... `hr1`: the record's operand indices at
    an output index and a contraction position are (row, position) and (column, position). -/
theorem matmul_zero_apply {M K N : Nat} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j 1).val)
    (hr1 : ∀ (j : (⟨2, ![M, N]⟩ : Shape).Idx) (q : D.contr.Idx), (D.rhsIdx j q (1 : Fin 2)).val = (q ⟨0, by omega⟩).val)
    (lhs : FVec Ideal ⟨2, ![M, K]⟩ φ₁) (rhs : FVec Ideal ⟨2, ![N, K]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Idealize.ShloMosaic.MatmulT

end
-- ==== Proof.MatmulRegion.lean ====
/-
  The product-and-rescale body on one [512, 512] block, and the whole [16384, 4096] array it fills.

  On a 32 x 8 grid, point (i, j) reads rows 512 i ... 512 i + 511 of the quantised array Q [16384, 4096] and of the
  scales S [16384, 128], rows 512 j ... 512 j + 511 of the weights W [4096, 4096], and columns 512 j ... 512 j + 511 of
  the channel scales A and biases B [1, 4096]. Entry (p, c) of what it writes is
      ((sum over k of Q-block (p, k) * W-block (c, k)) * S-block (p, 0)) * A-block (0, c) + B-block (0, c):
  the product contracts the second axis of both operands (rows against rows), lane 0 of the scales is repeated along
  the columns, the channel rows along the rows. An entry depends on ONE row of Q, ONE row of W, one scale and one
  channel, and block (i, j) of the output holds exactly the entries (512 i + p, 512 j + c); the 256 blocks tile the
  array, so the array ends as `mmArr Q W S A B` everywhere.
-/
import proofs.«168288_j71725953843873_2_alg».proof.Proof.Gen.KernelIdeal.Frame
import proofs.«168288_j71725953843873_2_alg».proof.Proof.QuantSpec
import proofs.«168288_j71725953843873_2_alg».proof.Proof.LibMatmulT
import proofs.«168288_j71725953843873_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section
open scoped BigOperators
open Idealize.ShloMosaic Idealize.ShloMosaic.ValueIdx Idealize.ShloMosaic.TcCoe Idealize.SL.Sem

namespace Cert.KernelIdeal.Bridge
open Cert.KernelIdeal Cert.KernelIdeal.Gen Cert.QuantSpec

/-! ## The body's value at an entry of the block -/

/-- The product of a [512, 4096] array with the transpose of another into a zero accumulator: entry (p, c) is the
    sum over k of row p of the left operand against row c of the right one. The record contracts axis 1 with axis 1
    and keeps axis 0 of each operand, so the left index at (p, c), k is (p, k) and the right one (c, k). -/
theorem mm_apply (x0 x1 : FVec Ideal S512x4096 .bf16) (p c : Fin 512) :
    FloatOps.matmul dot_S512x4096_S512x4096_S512x512_1_1_0_0_n_n none x0 x1 (constant (F := Ideal) S512x512 .f32 0x00000000#32) (ix2 p c)
      = ∑ k : Fin 4096, x0 (ix2 p k) * x1 (ix2 c k) := by
  refine MatmulT.matmul_zero_apply (M := 512) (K := 4096) (N := 512) dot_S512x4096_S512x4096_S512x512_1_1_0_0_n_n none rfl rfl ?_ ?_ ?_ ?_ x0 x1 p c
  · intro j q
    unfold DotDims.lhsIdx
    rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
    rfl
  · intro j q
    exact dot_S512x4096_S512x4096_S512x512_1_1_0_0_n_n.lhsIdx_val_of_single rfl j q
  · intro j q
    unfold DotDims.rhsIdx
    rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
    rfl
  · intro j q
    exact dot_S512x4096_S512x4096_S512x512_1_1_0_0_n_n.rhsIdx_val_of_single rfl j q

/-- Lane 0 of a [512, 128] array, cut out as a column and repeated over 512 columns: entry (p, c) is the array's
    entry (p, 0). -/
theorem col_apply (x2 : FVec Ideal S512x128 .f32) (hs : S512x128.Slices ![0, 0] S512x1) (hb : S512x1.Broadcasts S512x512) (p c : Fin 512) :
    broadcastTo S512x512 (extractStridedSlice S512x1 ![0, 0] x2 hs) hb (ix2 p c) = x2 (ix2 p (0 : Fin 128)) :=
  (Cert.LibKeepdims.broadcastTo_a1_ab_apply _ hb p c).trans
    (slice2_axis1_apply 0 x2 hs p (0 : Fin 1) (0 : Fin 128) rfl)

/-- A [1, 512] row repeated over 512 rows: entry (p, c) is the row's entry (0, c). -/
theorem row_apply (x3 : FVec Ideal S1x512 .f32) (hb : S1x512.Broadcasts S512x512) (p c : Fin 512) :
    broadcastTo S512x512 x3 hb (ix2 p c) = x3 (ix2 (0 : Fin 1) c) :=
  broadcastTo_1b_ab_apply x3 hb p c

/-- Entry (p, c) of the body's result: the sum over k of x0 (p, k) * x1 (c, k), times x2 (p, 0), times x3 (0, c),
    plus x4 (0, c). The casts to the same shape are the identity; sums and products of arrays are entrywise. -/
theorem pay1_apply (x0 x1 : Vec Ideal S512x4096 .bf16) (x2 : Vec Ideal S512x128 .f32) (x3 x4 : Vec Ideal S1x512 .f32) (p c : Fin 512) :
    k1_pay1 (F := Ideal) x0 x1 x2 x3 x4 (ix2 p c)
      = (∑ k : Fin 4096, x0 (ix2 p k) * x1 (ix2 c k)) * x2 (ix2 p (0 : Fin 128)) * x3 (ix2 (0 : Fin 1) c) + x4 (ix2 (0 : Fin 1) c) := by
  unfold k1_pay1
  simp only [shapeCast_self]
  exact congrArg₂ (· + ·) (congrArg₂ (· * ·) (congrArg₂ (· * ·) (mm_apply x0 x1 p c) (col_apply x2 _ _ p c))
    (row_apply x3 _ p c)) (row_apply x4 _ p c)

/-- The same at any index of the block, by its two coordinates. -/
theorem pay1_at (x0 x1 : Vec Ideal S512x4096 .bf16) (x2 : Vec Ideal S512x128 .f32) (x3 x4 : Vec Ideal S1x512 .f32) (j : S512x512.Idx) :
    k1_pay1 (F := Ideal) x0 x1 x2 x3 x4 j
      = (∑ k : Fin 4096, x0 (ix2 (j 0) k) * x1 (ix2 (j 1) k)) * x2 (ix2 (j 0) (0 : Fin 128)) * x3 (ix2 (0 : Fin 1) (j 1)) + x4 (ix2 (0 : Fin 1) (j 1)) := by
  obtain ⟨p, q, rfl⟩ : ∃ (p q : Fin 512), j = ix2 p q := ⟨j 0, j 1, eq_ix2 j⟩
  exact pay1_apply x0 x1 x2 x3 x4 p q

/-! ## Which blocks a grid point reads and writes -/

theorem hz : (![0, 0] : Fin 2 → Nat) = fun _ => 0 := funext fun a => by fin_cases a <;> rfl

/-- At every point of the grid, with (i, j) the output's block index: Q and S are read at block (i, 0), W at block
    (j, 0), A and B at block (0, j); and i ≤ 31, j ≤ 7. -/
theorem idx_facts : ∀ t : Fin cfg1.N,
    win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = win1_5.index t (1 : Fin 2)
    ∧ win1_4.index t (0 : Fin 2) = 0 ∧ win1_4.index t (1 : Fin 2) = win1_5.index t (1 : Fin 2)
    ∧ win1_5.index t (0 : Fin 2) ≤ 31 ∧ win1_5.index t (1 : Fin 2) ≤ 7 :=
  (by decide +kernel : ∀ t : Fin grid1.N, _)

/-- 8 q0 + q1 is a point of the 32 x 8 grid. -/
theorem pt_lt (q0 : Fin 32) (q1 : Fin 8) : q0.val * 8 + q1.val < grid1.N := by
  have h0 := q0.isLt
  have h1 := q1.isLt
  rw [N_1]
  omega

/-- Every block index (q0, q1) of the output is some point's: point 8 q0 + q1 writes it. -/
theorem idx_onto : ∀ (q0 : Fin 32) (q1 : Fin 8), ∃ t : Fin cfg1.N, win1_5.index t = ![q0.val, q1.val] := fun q0 q1 =>
  ⟨⟨q0.val * 8 + q1.val, pt_lt q0 q1⟩,
    (by decide +kernel : ∀ (q0 : Fin 32) (q1 : Fin 8), win1_5.index ⟨q0.val * 8 + q1.val, pt_lt q0 q1⟩ = ![q0.val, q1.val]) q0 q1⟩

variable (V : (c : Dev nD) → (b : Ref sig .tc) → Buf (Elt Ideal) ((c : Thread nD τ).loc b))

/-! ## Each input block's entry is an entry of its array

An entry of a block sits in the array, on each axis, at the block index times the block's extent plus its own
coordinate. With (i, j) the output's block index at the point: -/

/-- entry (p, k) of the Q block is Q (512 i + p, k); -/
theorem blk0_apply (c : Dev nD) (t : Fin cfg1.N) (x : S512x4096.Idx) (i : S16384x4096.Idx)
    (h0 : (i 0).val = win1_5.index t (0 : Fin 2) * 512 + (x 0).val) (h1 : (i 1).val = (x 1).val) :
    (iblk1 (F := Ideal) V c 0 t : Vec Ideal S512x4096 .bf16) x = (V c main_v5_0 : S16384x4096.Idx → EReal) i := by
  obtain ⟨e00, e01, -⟩ := idx_facts t
  unfold iblk1
  rw [View.read_apply]
  show (V c main_v5_0 : S16384x4096.Idx → EReal) _ = _
  congr 1
  funext a
  apply Fin.ext
  match a with
  | ⟨0, _⟩ => show win1_0.index t (0 : Fin 2) * 512 + 1 * (x 0).val = (i 0).val; rw [e00, h0]; omega
  | ⟨1, _⟩ => show win1_0.index t (1 : Fin 2) * 4096 + 1 * (x 1).val = (i 1).val; rw [e01, h1]; omega

/-- entry (c, k) of the W block is W (512 j + c, k); -/
theorem blk1_apply (c : Dev nD) (t : Fin cfg1.N) (x : S512x4096.Idx) (i : S4096x4096.Idx)
    (h0 : (i 0).val = win1_5.index t (1 : Fin 2) * 512 + (x 0).val) (h1 : (i 1).val = (x 1).val) :
    (iblk1 (F := Ideal) V c 1 t : Vec Ideal S512x4096 .bf16) x = (V c main_v1 : S4096x4096.Idx → EReal) i := by
  obtain ⟨e00, e01, e10, e11, e20, e21, e30, e31, e40, e41, -⟩ := idx_facts t
  unfold iblk1
  rw [View.read_apply]
  show (V c main_v1 : S4096x4096.Idx → EReal) _ = _
  congr 1
  funext a
  apply Fin.ext
  match a with
  | ⟨0, _⟩ => show win1_1.index t (0 : Fin 2) * 512 + 1 * (x 0).val = (i 0).val; rw [e10, h0]; omega
  | ⟨1, _⟩ => show win1_1.index t (1 : Fin 2) * 4096 + 1 * (x 1).val = (i 1).val; rw [e11, h1]; omega

/-- entry (p, l) of the S block is S (512 i + p, l); -/
theorem blk2_apply (c : Dev nD) (t : Fin cfg1.N) (x : S512x128.Idx) (i : S16384x128.Idx)
    (h0 : (i 0).val = win1_5.index t (0 : Fin 2) * 512 + (x 0).val) (h1 : (i 1).val = (x 1).val) :
    (iblk1 (F := Ideal) V c 2 t : Vec Ideal S512x128 .f32) x = (V c main_v5_1 : S16384x128.Idx → EReal) i := by
  obtain ⟨e00, e01, e10, e11, e20, e21, e30, e31, e40, e41, -⟩ := idx_facts t
  unfold iblk1
  rw [View.read_apply]
  show (V c main_v5_1 : S16384x128.Idx → EReal) _ = _
  congr 1
  funext a
  apply Fin.ext
  match a with
  | ⟨0, _⟩ => show win1_2.index t (0 : Fin 2) * 512 + 1 * (x 0).val = (i 0).val; rw [e20, h0]; omega
  | ⟨1, _⟩ => show win1_2.index t (1 : Fin 2) * 128 + 1 * (x 1).val = (i 1).val; rw [e21, h1]; omega

/-- entry (0, c) of the A block is A (0, 512 j + c); -/
theorem blk3_apply (c : Dev nD) (t : Fin cfg1.N) (x : S1x512.Idx) (i : S1x4096.Idx)
    (h0 : (i 0).val = (x 0).val) (h1 : (i 1).val = win1_5.index t (1 : Fin 2) * 512 + (x 1).val) :
    (iblk1 (F := Ideal) V c 3 t : Vec Ideal S1x512 .f32) x = (V c main_v3 : S1x4096.Idx → EReal) i := by
  obtain ⟨e00, e01, e10, e11, e20, e21, e30, e31, e40, e41, -⟩ := idx_facts t
  unfold iblk1
  rw [View.read_apply]
  show (V c main_v3 : S1x4096.Idx → EReal) _ = _
  congr 1
  funext a
  apply Fin.ext
  match a with
  | ⟨0, _⟩ => show win1_3.index t (0 : Fin 2) * 1 + 1 * (x 0).val = (i 0).val; rw [e30, h0]; omega
  | ⟨1, _⟩ => show win1_3.index t (1 : Fin 2) * 512 + 1 * (x 1).val = (i 1).val; rw [e31, h1]; omega

/-- entry (0, c) of the B block is B (0, 512 j + c). -/
theorem blk4_apply (c : Dev nD) (t : Fin cfg1.N) (x : S1x512.Idx) (i : S1x4096.Idx)
    (h0 : (i 0).val = (x 0).val) (h1 : (i 1).val = win1_5.index t (1 : Fin 2) * 512 + (x 1).val) :
    (iblk1 (F := Ideal) V c 4 t : Vec Ideal S1x512 .f32) x = (V c main_v4 : S1x4096.Idx → EReal) i := by
  obtain ⟨e00, e01, e10, e11, e20, e21, e30, e31, e40, e41, -⟩ := idx_facts t
  unfold iblk1
  rw [View.read_apply]
  show (V c main_v4 : S1x4096.Idx → EReal) _ = _
  congr 1
  funext a
  apply Fin.ext
  match a with
  | ⟨0, _⟩ => show win1_4.index t (0 : Fin 2) * 1 + 1 * (x 0).val = (i 0).val; rw [e40, h0]; omega
  | ⟨1, _⟩ => show win1_4.index t (1 : Fin 2) * 512 + 1 * (x 1).val = (i 1).val; rw [e41, h1]; omega

/-! ## What a point writes back, and the whole array -/

/-- What a point writes back is its block of `mmArr` of the five arrays: entry (p, c) of the body's result is built
    from row p of the Q block, row c of the W block, lane 0 of row p of the S block and column c of the A and B
    blocks, which are row 512 i + p of Q and S, row 512 j + c of W and column 512 j + c of A and B: the data of
    entry (512 i + p, 512 j + c) of `mmArr`. -/
theorem flushed_eq (c : Dev nD) (t : Fin cfg1.N) :
    (dat1 (F := Ideal) V c).flushed 5 t = ((cfg1.win 5).blk t).view.read (Elt Ideal)
      (mmArr (V c main_v5_0) (V c main_v1) (V c main_v5_1) (V c main_v3) (V c main_v4)) := by
  show (cfg1.win 5).cut (grid1.coords t) ((dat1 V c).after 5 t) = _
  rw [after1_5]
  unfold out1_5
  rw [View.canon_unit_zero hz]
  simp only [View.ld_unit_zero (S := S512x4096) hz, View.ld_unit_zero (S := S512x128) hz, View.ld_unit_zero (S := S1x512) hz]
  funext j
  have hi0 : ((((cfg1.win 5).blk t).view.emb j) 0).val = win1_5.index t (0 : Fin 2) * 512 + (j 0).val := by
    show win1_5.index t (0 : Fin 2) * 512 + 1 * (j 0).val = _; omega
  have hi1 : ((((cfg1.win 5).blk t).view.emb j) 1).val = win1_5.index t (1 : Fin 2) * 512 + (j 1).val := by
    show win1_5.index t (1 : Fin 2) * 512 + 1 * (j 1).val = _; omega
  show k1_pay1 (F := Ideal) (iblk1 V c 0 t) (iblk1 V c 1 t) (iblk1 V c 2 t) (iblk1 V c 3 t) (iblk1 V c 4 t) j
    = mmArr (V c main_v5_0) (V c main_v1) (V c main_v5_1) (V c main_v3) (V c main_v4) (((cfg1.win 5).blk t).view.emb j)
  refine (pay1_at (iblk1 V c 0 t) (iblk1 V c 1 t) (iblk1 V c 2 t) (iblk1 V c 3 t) (iblk1 V c 4 t) j).trans ?_
  unfold mmArr
  refine congrArg₂ (· + ·) (congrArg₂ (· * ·) (congrArg₂ (· * ·) (Finset.sum_congr rfl fun k _ => congrArg₂ (· * ·) ?_ ?_) ?_) ?_) ?_
  · exact blk0_apply V c t _ _ hi0 rfl
  · exact blk1_apply V c t _ _ hi1 rfl
  · exact blk2_apply V c t _ _ hi0 rfl
  · exact blk3_apply V c t _ _ rfl hi1
  · exact blk4_apply V c t _ _ rfl hi1

/-- Every index (r, s) of the [16384, 4096] array is in some point's block: the one with block index
    (r / 512, s / 512). -/
theorem cover (i : S16384x4096.Idx) :
    ∃ t : Fin cfg1.N, (cfg1.win 5).flush t = true ∧ i ∈ ((cfg1.win 5).blk t).view.set := by
  have hi0 : (i 0).val < 16384 := (i 0).isLt
  have hi1 : (i 1).val < 4096 := (i 1).isLt
  obtain ⟨t, ht⟩ := idx_onto ⟨(i 0).val / 512, by omega⟩ ⟨(i 1).val / 512, by omega⟩
  have q0 : win1_5.index t (0 : Fin 2) = (i 0).val / 512 := congrFun ht 0
  have q1 : win1_5.index t (1 : Fin 2) = (i 1).val / 512 := congrFun ht 1
  refine ⟨t, flush1_5 t, ?_⟩
  show i ∈ ((View.whole main_v6).slice (win1_5.rect t)).set
  rw [View.set_slice_whole, Rect.mem_set_unit]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 512 ≤ (i 1).val ∧ (i 1).val < win1_5.index t (1 : Fin 2) * 512 + 512; omega

/-- The array after the region is `mmArr` of the arrays the region finds: every point writes its block of it, and
    the blocks cover the array. -/
theorem region1 (c : Dev nD) : (dat1 (F := Ideal) V c).arrAt 5 cfg1.N
    = mmArr (V c main_v5_0) (V c main_v1) (V c main_v5_1) (V c main_v3) (V c main_v4) :=
  (dat1 V c).arrAt_eq_of_cover 5 (mmArr (V c main_v5_0) (V c main_v1) (V c main_v5_1) (V c main_v3) (V c main_v4))
    (fun t _ => flushed_eq V c t) (fun i => cover i)

end Cert.KernelIdeal.Bridge
end
-- ==== Proof.ResultValue.lean ====
/-
  The kernel's result array as one function of its argument arrays.

  Before the two regions the host flattens the input to [16384, 4096], reads the integer weights as reals, and lays the
  channel scales and the bias out as rows [1, 4096]. The quantisation region leaves the quantised rows and the rows'
  scales in two arrays that only it writes; the matrix-product region reads those two and the three host arrays, none of
  which the first region touched, and leaves the rescaled product; the host folds it back to [4, 4096, 4096]. Reading each
  segment's contents off the one before gives the folded product of the quantised flattened input, which is the
  specification's function of the four arguments.
-/
import proofs.«168288_j71725953843873_2_alg».proof.Proof.Gen.KernelIdeal.Frame
import proofs.«168288_j71725953843873_2_alg».proof.Proof.QuantSpec
import proofs.«168288_j71725953843873_2_alg».proof.Proof.QuantBlocks
import proofs.«168288_j71725953843873_2_alg».proof.Proof.KernelValue
import proofs.«168288_j71725953843873_2_alg».proof.Proof.MatmulRegion
import Idealize.ShloMosaic.Lib.StableHlo.Run
import Idealize.ShloMosaic.Lib.Pipeline.Value
import Idealize.ShloMosaic.Lib.Tactic

set_option maxRecDepth 65536

noncomputable section

namespace Cert.KernelIdeal.Bridge

open Cert.KernelIdeal Cert.KernelIdeal.Gen Cert.QuantSpec
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-! ## The host operations before the regions, read off the launch memory -/

/-- The flattened input. -/
theorem entry_x (c : Dev nD) : (V1 m ρ c main_v0 : S16384x4096.Idx → EReal)
    = shapeCast S16384x4096 (m ((c : Thread nD τ).loc main_arg0)) shapeCasts_S4x4096x4096_S16384x4096 := by
  show StableHlo.after hostOps0 (W0 m ρ c) (Proc.devRef .tc main_v0) = _
  after_results <;> rfl

/-- The integer weights read as reals. -/
theorem entry_w (c : Dev nD) : (V1 m ρ c main_v1 : S4096x4096.Idx → EReal)
    = sitofp (F := Ideal) .bf16 (m ((c : Thread nD τ).loc main_arg1)) := by
  show StableHlo.after hostOps0 (W0 m ρ c) (Proc.devRef .tc main_v1) = _
  after_results <;> rfl

/-- The channel scales as a row. -/
theorem entry_a (c : Dev nD) : (V1 m ρ c main_v3 : S1x4096.Idx → EReal)
    = broadcastInDim S1x4096 ![1] bcast_S4096_S1x4096_1
        (shapeCast S4096 (m ((c : Thread nD τ).loc main_arg2)) shapeCasts_S4096x1_S4096) := by
  show StableHlo.after hostOps0 (W0 m ρ c) (Proc.devRef .tc main_v3) = _
  after_results <;> rfl

/-- The bias as a row. -/
theorem entry_b (c : Dev nD) : (V1 m ρ c main_v4 : S1x4096.Idx → EReal)
    = broadcastInDim S1x4096 ![1] bcast_S4096_S1x4096_1 (m ((c : Thread nD τ).loc main_arg3)) := by
  show StableHlo.after hostOps0 (W0 m ρ c) (Proc.devRef .tc main_v4) = _
  after_results <;> rfl

/-! ## The result array after the four segments -/

/-- The result array ends at the specification's function of the argument arrays. -/
theorem result_value
    (c : Dev nD) :
    W4 (F := Ideal) m ρ c (Proc.devRef .tc main_v7)
      = Cert.QuantSpec.result (m ((c : Thread nD τ).loc main_arg0)) (sitofp (F := Ideal) .f32 (m ((c : Thread nD τ).loc main_arg1)))
          (m ((c : Thread nD τ).loc main_arg2)) (m ((c : Thread nD τ).loc main_arg3)) := by
  have e7 : W4 m ρ c (Proc.devRef .tc main_v7)
      = shapeCast S4x4096x4096 (W3 m ρ c (Proc.devRef .tc main_v6)) shapeCasts_S16384x4096_S4x4096x4096 := by
    show StableHlo.after hostOps2 (W3 m ρ c) (Proc.devRef .tc main_v7) = _
    after_results <;> rfl
  have e6 : W3 m ρ c (Proc.devRef .tc main_v6) = (dat1 (V2 m ρ) c).arrAt 5 cfg1.N := W3_arr m ρ c 5
  have eq : V2 m ρ c main_v5_0 = quantArr (V1 m ρ c main_v0) := (W2_arr m ρ c 1).trans (region0_q (V1 m ρ) c)
  have es : V2 m ρ c main_v5_1 = scaleArr (V1 m ρ c main_v0) := (W2_arr m ρ c 2).trans (region0_s (V1 m ρ) c)
  have ew : V2 m ρ c main_v1 = V1 m ρ c main_v1 := W2_of_ne m ρ c main_v1 (by decide)
  have ea : V2 m ρ c main_v3 = V1 m ρ c main_v3 := W2_of_ne m ρ c main_v3 (by decide)
  have eb : V2 m ρ c main_v4 = V1 m ρ c main_v4 := W2_of_ne m ρ c main_v4 (by decide)
  rw [e7, e6, region1 (V2 m ρ) c, eq, es, ew, ea, eb, entry_x m ρ c, entry_w m ρ c, entry_a m ρ c, entry_b m ρ c]
  exact Cert.QuantSpec.kernelValue_eq _ _ _ _ _ _ _ _

end Cert.KernelIdeal.Bridge

end
-- ==== Proof.LibRowFold.lean ====
/-
  The minimum along the lanes of a row, and the host's reductions over the last axis of a rank-3 array, read at an index
  at the exact values.

  A lane minimum of an [a, b] array started from the word of plus infinity is, at row p, the fold of `min` from that word's
  value over the row's b entries. The host's one-operand reduce with a minimum or a maximum body over the last axis of an
  [a, b, c] array is, at (p, q), the same fold from its initial value over the c entries x[p, q, ·]. All forms are stated
  over `Fin` of the reduced extent with the entries named by their coordinates, so that a row-wise computation on a
  block of rows and on the whole array meet in one expression.
-/
import Idealize.ShloMosaic.Lib.ValueIdx
import Idealize.ShloMosaic.PureOps.Ideal.Laws
import Idealize.ShloMosaic.PureOps.Reduce

noncomputable section

namespace Cert.LibRowFold

open Idealize.ShloMosaic Idealize.ShloMosaic.ValueIdx

/-- The inserted index of a lane reduction of an [a, b] array at row p and lane k is (p, k). -/
theorem lift_row {a b : ℕ} (h : (⟨2, ![a, b]⟩ : Shape).Reduces [1] ⟨1, ![a]⟩) (p : Fin a) (k : Fin b) :
    h.lift (ix1 p) k = ix2 p k :=
  funext fun c => by
    match c with
    | ⟨0, _⟩ => exact Fin.ext rfl
    | ⟨1, _⟩ => exact Fin.ext rfl

/-- The inserted index of a last-axis reduction of an [a, b, c] array at (p, q) and coordinate k is (p, q, k). -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => by
    match d with
    | ⟨0, _⟩ => exact Fin.ext rfl
    | ⟨1, _⟩ => exact Fin.ext rfl
    | ⟨2, _⟩ => exact Fin.ext rfl

/-- The lane minimum of an `[a, b]` array started from the word of plus infinity, at row `p`: the fold of `min`
    over the row's entries from that word's value. -/
theorem laneMin_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = 0x7F800000#32) (p : Fin a) :
    multiReduction .minimumf [1] ⟨1, ![a]⟩ src 0x7F800000#32 h hφ hacc (ix1 p)
      = (Finset.univ : Finset (Fin b)).fold min (Ideal.ofBits .f32 0x7F800000#32) (fun k => src (ix2 p k)) :=
  ((multiReduction_minimumf_eq_fold src 0x7F800000#32 h hφ hacc (ix1 p)).trans
      (h.fold_filter_drop_single _ _ src (ix1 p))).trans
    (congrArg (Finset.fold min (Ideal.ofBits .f32 0x7F800000#32) · Finset.univ) (funext fun k => congrArg src (lift_row h p k)))

/-- The host's reduce with a minimum body over the last axis of an `[a, b, c]` array, at `(p, q)`: the fold of `min`
    over the entries `x[p, q, ·]` from the initial value. -/
theorem hostMin3_apply {a b c : ℕ} {u : Shape} (x : (⟨3, ![a, b, c]⟩ : Shape).Idx → EReal) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.minimumf (F := Ideal) (φ := .f32)) x init h' hu (ix2 p q)
      = (Finset.univ : Finset (Fin c)).fold min (init (Shape.Idx.first hu)) (fun k => x (ix3 p q k)) :=
  (Host.reduce_eq_fold_single (FloatOps.minimumf (F := Ideal) (φ := .f32)) x init h' h hu (ix2 p q)).trans
    (congrArg (Finset.fold min (init (Shape.Idx.first hu)) · Finset.univ) (funext fun k => congrArg x (lift_last h p q k)))

/-- The host's reduce with a maximum body over the last axis of an `[a, b, c]` array, at `(p, q)`: the fold of `max`
    over the entries `x[p, q, ·]` from the initial value. -/
theorem hostMax3_apply {a b c : ℕ} {u : Shape} (x : (⟨3, ![a, b, c]⟩ : Shape).Idx → EReal) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) :=
  (Host.reduce_eq_fold_single (FloatOps.maximumf (F := Ideal) (φ := .f32)) x init h' h hu (ix2 p q)).trans
    (congrArg (Finset.fold max (init (Shape.Idx.first hu)) · Finset.univ) (funext fun k => congrArg x (lift_last h p q k)))

end Cert.LibRowFold

end
-- ==== Proof.RefValue.lean ====
/-
  The reference computation, entry by entry, is the per-row quantised product of the specification.

  For an entry (b, s, o) the reference takes the maximum over k of |x[b, s, k]| started from minus infinity, divides it
  by 127 and keeps it at least the small positive constant: the scale of row x[b, s, ·]. It divides the row by that
  scale, rounds half to even and keeps the value inside [-128, 127]: the quantised row. It contracts the quantised row
  over k against row o of the weights converted from integers, multiplies by the row's scale, then by the channel's
  scale a[o, 0], and adds the bias b[o], in that association. Each step is read at an index from its operands at an
  index, the broadcasts and the reshape moving only the index, so the value at (b, s, o) is the specification's entry
  for row x[b, s, ·] and weight row o.
-/
import proofs.«168288_j71725953843873_2_alg».proof.Proof.Gen.ReferenceIdeal.Read
import proofs.«168288_j71725953843873_2_alg».proof.Proof.QuantSpec
import proofs.«168288_j71725953843873_2_alg».proof.Proof.LibRowFold

noncomputable section
open scoped BigOperators
open Idealize.ShloMosaic Idealize.ShloMosaic.ValueIdx Idealize.ShloMosaic.TcCoe Idealize.SL.Sem

namespace Cert.ReferenceIdeal.RefValue
open Cert.ReferenceIdeal Cert.ReferenceIdeal.Gen Cert.QuantSpec Cert.ReferenceIdeal.Read

/-- The row maximum of the absolute values: at (b, s) the fold of max from minus infinity over |x[b, s, k]|. -/
theorem rowMax_apply (x0 : (⟨S4x4096x4096, .f32⟩ : BufTy).Contents (Elt Ideal)) (b : Fin 4) (s : Fin 4096) :
    val_main_v1 (F := Ideal) x0 (ix2 b s)
      = (Finset.univ : Finset (Fin 4096)).fold max (Ideal.ofBits .f32 0xFF800000#32)
          (fun k => FloatOps.absf (F := Ideal) (φ := .f32) (x0 (ix3 b s k))) :=
  Cert.LibRowFold.hostMax3_apply (val_main_v0 (F := Ideal) x0) (val_main_cst (F := Ideal))
    reducesTo_S4x4096x4096_S4x4096_d2
    ⟨reducesTo_S4x4096x4096_S4x4096_d2.1, Nat.two_pos, reducesTo_S4x4096x4096_S4x4096_d2.2⟩ h_S_ b s

/-- The kept-dimension scale at (b, s, 0) is the scale of row x[b, s, ·]. -/
theorem rowScale_apply (x0 : (⟨S4x4096x4096, .f32⟩ : BufTy).Contents (Elt Ideal)) (b : Fin 4) (s : Fin 4096) (z : Fin 1) :
    val_main_v6 (F := Ideal) x0 (ix3 b s z) = rowScale (fun k => x0 (ix3 b s k)) := by
  have e2 : idx_main_v2 (ix3 b s z) = ix2 b s := funext fun a => Fin.ext (by
    match a with
    | ⟨0, _⟩ => rfl
    | ⟨1, _⟩ => rfl)
  rw [val_main_v6_apply, val_main_v4_apply, val_main_v2_apply, e2, rowMax_apply, val_main_v3_apply, val_main_v5_apply,
    val_main_cst_0_apply, val_main_cst_1_apply]
  rfl

/-- The quantised array at (b, s, k) is the quantised entry k of row x[b, s, ·]. -/
theorem quant_apply (x0 : (⟨S4x4096x4096, .f32⟩ : BufTy).Contents (Elt Ideal)) (b : Fin 4) (s k : Fin 4096) :
    val_main_v10 (F := Ideal) x0 (ix3 b s k) = quant (fun k => x0 (ix3 b s k)) k := by
  have e7 : idx_main_v7 (ix3 b s k) = ix3 b s (0 : Fin 1) := funext fun a => Fin.ext (by
    match a with
    | ⟨0, _⟩ => rfl
    | ⟨1, _⟩ => rfl
    | ⟨2, _⟩ => rfl)
  rw [val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply, e7, rowScale_apply]
  rfl

/-- The reference's result array is the specification's function of the argument arrays, the integer weights read as reals. -/
theorem ref_eq (x0 : (⟨S4x4096x4096, .f32⟩ : BufTy).Contents (Elt Ideal)) (x1 : (⟨S4096x4096, .i32⟩ : BufTy).Contents (Elt Ideal))
    (x2 : (⟨S4096x1, .f32⟩ : BufTy).Contents (Elt Ideal)) (x3 : (⟨S4096, .f32⟩ : BufTy).Contents (Elt Ideal)) :
    Cert.ReferenceIdeal.Read.val_main_v21 (F := Ideal) x0 x1 x2 x3
      = result x0 (sitofp (F := Ideal) .f32 x1) x2 x3 := by
  funext i
  obtain ⟨b, s, o, rfl⟩ : ∃ (b : Fin 4) (s : Fin 4096) (o : Fin 4096), i = ix3 b s o := ⟨i 0, i 1, i 2, eq_ix3 i⟩
  have el : ∀ k : Fin 4096, lidx_main_v12 (ix3 b s o) k = ix3 b s k := fun k => funext fun a => Fin.ext (by
    match a with
    | ⟨0, _⟩ => rfl
    | ⟨1, _⟩ => rfl
    | ⟨2, _⟩ => rfl)
  have er : ∀ k : Fin 4096, ridx_main_v12 (ix3 b s o) k = ix2 o k := fun k => funext fun a => Fin.ext (by
    match a with
    | ⟨0, _⟩ => rfl
    | ⟨1, _⟩ => rfl)
  have e13 : idx_main_v13 (ix3 b s o) = ix3 b s (0 : Fin 1) := funext fun a => Fin.ext (by
    match a with
    | ⟨0, _⟩ => rfl
    | ⟨1, _⟩ => rfl
    | ⟨2, _⟩ => rfl)
  have e15 : idx_main_v15 (idx_main_v16 (idx_main_v17 (ix3 b s o))) = ix2 o (0 : Fin 1) := funext fun a => Fin.ext (by
    match a with
    | ⟨0, _⟩ => exact Nat.div_one _
    | ⟨1, _⟩ => rfl)
  have e19 : idx_main_v19 (idx_main_v20 (ix3 b s o)) = ix1 o := funext fun a => Fin.ext (by
    match a with
    | ⟨0, _⟩ => rfl)
  rw [val_main_v21_apply, val_main_v18_apply, val_main_v14_apply, val_main_v12_apply, val_main_v13_apply, e13,
    rowScale_apply, val_main_v17_apply, val_main_v16_apply, val_main_v15_apply, e15, val_main_v20_apply,
    val_main_v19_apply, e19]
  simp only [el, er, quant_apply]
  rfl

end Cert.ReferenceIdeal.RefValue
end
-- ==== Proof.lean ====
/-
  Per-token int8 quantisation and a quantised matrix product, a two-region kernel against its array-level reference.

  Both programs take an input x[4, 4096, 4096], integer weights w[4096, 4096], channel scales a[4096, 1] and a bias b[4096].
  Every row of x gets the scale s = max (max_k |x_k| / 127) eps and is quantised to q_k = clip (round-half-even (x_k / s));
  entry (b, s, o) of the result is ((sum over k of q_k * w[o, k]) * s) * a[o, 0] + b[o]. The kernel computes the scales and
  the quantised rows in one grid region over blocks of 512 rows of the flattened input, and the products in a second
  region over 512 x 512 blocks; the reference computes the same expression on whole arrays. At the exact values a change
  of float format is the identity, an integer reads as the same real in every format, and the two sides apply the same
  operations in the same association to the same rows, so the results are equal entry by entry with no hypothesis on
  the inputs beyond what the claim already states. The idealization rewrote nothing, so its conjunct is trivial; the
  three runs terminate without a fault and keep their arguments.
-/
import proofs.«168288_j71725953843873_2_alg».proof.Defs
import proofs.«168288_j71725953843873_2_alg».proof.Proof.Gen.Kernel
import proofs.«168288_j71725953843873_2_alg».proof.Proof.Gen.Kernel.Skeleton
import proofs.«168288_j71725953843873_2_alg».proof.Proof.Gen.Kernel.Launch
import proofs.«168288_j71725953843873_2_alg».proof.Proof.Gen.Kernel.Points
import proofs.«168288_j71725953843873_2_alg».proof.Proof.Gen.Kernel.Frame
import proofs.«168288_j71725953843873_2_alg».proof.Proof.Gen.KernelIdeal
import proofs.«168288_j71725953843873_2_alg».proof.Proof.Gen.KernelIdeal.Skeleton
import proofs.«168288_j71725953843873_2_alg».proof.Proof.Gen.KernelIdeal.Launch
import proofs.«168288_j71725953843873_2_alg».proof.Proof.Gen.KernelIdeal.Points
import proofs.«168288_j71725953843873_2_alg».proof.Proof.Gen.KernelIdeal.Frame
import proofs.«168288_j71725953843873_2_alg».proof.Proof.Gen.ReferenceIdeal
import proofs.«168288_j71725953843873_2_alg».proof.Proof.Gen.ReferenceIdeal.Run
import proofs.«168288_j71725953843873_2_alg».proof.Proof.Gen.ReferenceIdeal.Read
import proofs.«168288_j71725953843873_2_alg».proof.Proof.Gen.Pre_finite_inputs
import proofs.«168288_j71725953843873_2_alg».proof.Proof.KernelRun
import proofs.«168288_j71725953843873_2_alg».proof.Proof.ResultValue
import proofs.«168288_j71725953843873_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact values both programs end with the result array at the specification's function of the argument
    arrays: the kernel through its two regions and the host operations around them, the reference through its line of
    host operations; the arguments agree, so the two results are equal entry by entry. -/
theorem algebraic  :
    Cert.algebraic_KernelIdeal_ReferenceIdeal := by
  intro m ρ m' ρ' _ hagree
  refine ⟨fun c => Cert.QuantSpec.result (m ((c.tc : Thread Cert.KernelIdeal.nD Cert.KernelIdeal.τ).loc Cert.KernelIdeal.main_arg0))
      (sitofp (F := Ideal) .f32 (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Bridge.result_value m ρ c), (h c).2⟩)
      (Cert.KernelIdeal.Bridge.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
